-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S4096x2048 : Shape := ⟨2, ![4096, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S16384x2048 .f32) (main_arg1 : FVec F S4096x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S16384x2048 : Shape := ⟨2, ![16384, 2048]⟩
abbrev S4096x2048 : Shape := ⟨2, ![4096, 2048]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩
abbrev S2048x2048 : Shape := ⟨2, ![2048, 2048]⟩
abbrev S256x2048 : Shape := ⟨2, ![256, 2048]⟩
abbrev S2048x1 : Shape := ⟨2, ![2048, 1]⟩
abbrev S1x256 : Shape := ⟨2, ![1, 256]⟩
abbrev S2048x256 : Shape := ⟨2, ![2048, 256]⟩

abbrev nBuf : Space → Nat
  | .hbm => 13
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S4096x2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S16384x2048, .bf16⟩
  | .hbm, ⟨11, _⟩ => ⟨S4096x2048, .bf16⟩
  | .hbm, ⟨12, _⟩ => ⟨S16384x4096, .f32⟩
  | .local _ .vmem, ⟨0, _⟩ => ⟨S2048x2048, .bf16⟩
  | .local _ .vmem, ⟨1, _⟩ => ⟨S2048x2048, .bf16⟩
  | .local _ .vmem, ⟨2, _⟩ => ⟨S256x2048, .bf16⟩
  | .local _ .vmem, ⟨3, _⟩ => ⟨S256x2048, .bf16⟩
  | .local _ .vmem, ⟨4, _⟩ => ⟨S2048x1, .f32⟩
  | .local _ .vmem, ⟨5, _⟩ => ⟨S2048x1, .f32⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  reducesTo_S4096x2048_S4096_d1 : S4096x2048.ReducesTo [1] S4096
  bcast_S4096_S1x4096_1 : S4096.BroadcastsInDim S1x4096 (![1] : Fin 1 → Fin S1x4096.rank)
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S2048x1_S2048x256 : S2048x1.Broadcasts S2048x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x2048_S256x2048_S2048x256_1_1_0_0_n_n_wf : DotDims.WF S2048x2048 S256x2048 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x2048.size a
  hwx0_0 : ∀ i : grid0.Coords, EltTy.bits .bf16 = 32 ∨ (Rect.block (s := S16384x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .bf16 = 32 ∨ (Rect.block (s := S4096x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S16384x4096.size a
  hwx0_4 : ∀ i : grid0.Coords, EltTy.bits .f32 = 32 ∨ (Rect.block (s := S16384x4096) S2048x256.size (cc0_transform_4 i) (hinb0_4 i)).WholeWords (EltTy.packing .f32)

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf

abbrev win0_0 : Pipeline.Window sig grid0 :=
  Pipeline.Window.ofSpec (Memref.whole main_v6) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S4096x2048 : Shape := ⟨2, ![4096, 2048]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩
abbrev S2048x4096 : Shape := ⟨2, ![2048, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4096x2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S2048x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  reducesTo_S4096x2048_S4096_d1 : S4096x2048.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  transposes_S4096x2048_S2048x4096_1_0 : S4096x2048.Transposes [1, 0] S2048x4096
  bcast_S_S16384x4096 : S_.BroadcastsInDim S16384x4096 (![] : Fin 0 → Fin S16384x4096.rank)
  dot_S16384x2048_S2048x4096_S16384x4096_1_0_0_1_n_n_wf : DotDims.WF S16384x2048 S2048x4096 S16384x4096 [1] [0] [0] [1] [] []

variable [Facts₀]

def dot_S16384x2048_S2048x4096_S16384x4096_1_0_0_1_n_n : DotDims S16384x2048 S2048x4096 S16384x4096 where
  lhsContracting := [1]
  rhsContracting := [0]
  lhsNonContracting := [0]
  rhsNonContracting := [1]
  lhsBatch := []
  rhsBatch := []
  wf := dot_S16384x2048_S2048x4096_S16384x4096_1_0_0_1_n_n_wf

class Facts : Prop extends Facts₀ where

variable [Facts]
-- ==== Proof.Spec.lean ====
/-
  The mathematics of the pairwise distance, as one function of the argument arrays.

  For points x (16384 rows of 2048 coordinates) and a codebook e (4096 rows of 2048 coordinates) both programs
  compute, at row r and column s,
      -( sqrt ( max ( (|x_r|² + |e_s|²) - 2 · ⟨x_r, e_s⟩ , 0 ) ) )
  on the extended reals, where ⟨x_r, e_s⟩ = Σ_k x[r,k] · e[s,k].  The squared norms enter as two given arrays (a column
  X2 of shape [16384,1] and a row E2 of shape [1,4096]): both programs form them by the same host operations on the
  same arguments, so the bridge never has to open them.

  The literals 0 and 2 stay the f32 words both programs print; only the zero word is ever evaluated, and only
  to turn the kernel's `0 - y` into the reference's `-y`.
-/
import Idealize.ShloMosaic.PureOps.Ideal
import Idealize.ShloMosaic.PureOps.Ideal.Laws
import Idealize.ShloMosaic.Lib.ValueIdx

noncomputable section

namespace Cert.L2Dist

open Idealize.ShloMosaic Idealize.ShloMosaic.ValueIdx

/-- The f32 word of 0.0 and of 2.0, read on the extended reals. -/
abbrev zeroW : EReal := Ideal.ofBits .f32 0x00000000#32
abbrev twoW : EReal := Ideal.ofBits .f32 0x40000000#32

/-- From the two squared norms and the inner product: the clamped squared distance, its root, negated
    (written as the subtraction from zero that the kernel performs). -/
def negDist (sx se ip : EReal) : EReal := zeroW - Ideal.sqrt (max ((sx + se) - twoW * ip) zeroW)

/-- The inner product of row `r` of `x` with row `s` of `e`, over their shared last axis. -/
def inner {n g d : Nat} (x : (⟨2, ![n, d]⟩ : Shape).Idx → EReal) (e : (⟨2, ![g, d]⟩ : Shape).Idx → EReal)
    (r : Fin n) (s : Fin g) : EReal := ∑ k : Fin d, x (ix2 r k) * e (ix2 s k)

/-- The whole result array: entry (r, s) from the squared norm of row r (column array `X2`), of row s (row array `E2`)
    and the two rows' inner product. -/
def dist (X2 : (⟨2, ![16384, 1]⟩ : Shape).Idx → EReal) (E2 : (⟨2, ![1, 4096]⟩ : Shape).Idx → EReal)
    (x : (⟨2, ![16384, 2048]⟩ : Shape).Idx → EReal) (e : (⟨2, ![4096, 2048]⟩ : Shape).Idx → EReal) :
    (⟨2, ![16384, 4096]⟩ : Shape).Idx → EReal :=
  fun i => negDist (X2 (ix2 (i 0) 0)) (E2 (ix2 0 (i 1))) (inner x e (i 0) (i 1))

theorem dist_ix2 (X2 : (⟨2, ![16384, 1]⟩ : Shape).Idx → EReal) (E2 : (⟨2, ![1, 4096]⟩ : Shape).Idx → EReal)
    (x : (⟨2, ![16384, 2048]⟩ : Shape).Idx → EReal) (e : (⟨2, ![4096, 2048]⟩ : Shape).Idx → EReal)
    (r : Fin 16384) (s : Fin 4096) :
    dist X2 E2 x e (ix2 r s) = negDist (X2 (ix2 r 0)) (E2 (ix2 0 s)) (inner x e r s) := rfl

/-- Negation is subtraction from the zero word: the reference negates, the kernel subtracts from 0.0. -/
theorem neg_eq_zeroW_sub (y : EReal) : -y = zeroW - y := by
  show -y = Ideal.ofBits .f32 0x00000000#32 - y
  rw [Ideal.ofBits_zero_f32, zero_sub]

end Cert.L2Dist

end
-- ==== Proof.BodyValue.lean ====
/-
  The kernel body's value at one entry of its output block.

  The body loads a [2048,2048] block of x, a [256,2048] block of e, a [2048,1] column of squared norms and a [1,256] row
  of squared norms, and stores one [2048,256] block.  Entry (p, q) of what it stores is
      0 - sqrt ( max ( (col[p,0] + row[0,q]) - 2 · Σ_k xblk[p,k] · eblk[q,k] , 0 ) ):
  the column is broadcast along the lanes, the row along the sublanes, and the matrix product into a zero accumulator
  contracts the last axis of both operands, so its entry is the inner product of row p of the one block with row q of
  the other.
-/
import proofs.«178038_j47966194762112_2_alg».proof.Proof.Gen.KernelIdeal.Skeleton
import proofs.«178038_j47966194762112_2_alg».proof.Proof.Spec
import Idealize.ShloMosaic.Lib.Pipeline.Value
import Idealize.ShloMosaic.Lib.ValueIdx
import Idealize.ShloMosaic.PureOps.Ideal.Laws

noncomputable section

namespace Cert.L2Dist.Body

open Idealize.ShloMosaic Idealize.ShloMosaic.ValueIdx Cert.KernelIdeal Cert.KernelIdeal.Gen Cert.L2Dist

/-- The body's one contraction: the last axis of the x block against the last axis of the e block. -/
abbrev D : DotDims S2048x2048 S256x2048 S2048x256 := dot_S2048x2048_S256x2048_S2048x256_1_1_0_0_n_n

/-- The left operand is read at the output's row … -/
theorem lhs_row (j : S2048x256.Idx) (u : D.contr.Idx) : (D.lhsIdx j u 0).val = (j 0).val := by
  unfold DotDims.lhsIdx
  rw [dif_neg (show ¬(0 : Fin S2048x2048.rank) ∈ D.lhsBatch by decide),
    dif_pos (show (0 : Fin S2048x2048.rank) ∈ D.lhsNonContracting by decide)]
  rfl
/-- … and the contraction coordinate; -/
theorem lhs_k (j : S2048x256.Idx) (u : D.contr.Idx) : (D.lhsIdx j u 1).val = (u ⟨0, by decide⟩).val :=
  D.lhsIdx_val_of_single rfl j u
/-- the right operand at the output's COLUMN (its own row axis) … -/
theorem rhs_row (j : S2048x256.Idx) (u : D.contr.Idx) : (D.rhsIdx j u 0).val = (j 1).val := by
  unfold DotDims.rhsIdx
  rw [dif_neg (show ¬(0 : Fin S256x2048.rank) ∈ D.rhsBatch by decide),
    dif_pos (show (0 : Fin S256x2048.rank) ∈ D.rhsNonContracting by decide)]
  rfl
/-- … and the contraction coordinate. -/
theorem rhs_k (j : S2048x256.Idx) (u : D.contr.Idx) : (D.rhsIdx j u 1).val = (u ⟨0, by decide⟩).val :=
  D.rhsIdx_val_of_single rfl j u

/-- The matrix product into the zero accumulator, at entry (p, q): the inner product of row p of the left block with
    row q of the right block. -/
theorem matmul_inner (a : FVec Ideal S2048x2048 .bf16) (b : FVec Ideal S256x2048 .bf16) (p : Fin 2048) (q : Fin 256) :
    matmul D none a b (constant (F := Ideal) S2048x256 .f32 0x00000000#32) (ix2 p q) = inner a b p q := by
  refine (Ideal.matmul_constant_zero_apply D none a b (ix2 p q)).trans ?_
  rw [← Equiv.sum_comp (contrEquiv1 D 2048 rfl rfl).symm]
  unfold inner
  refine Finset.sum_congr rfl fun k _ => ?_
  have hk := contrEquiv1_symm_val D 2048 rfl rfl k
  have el : D.lhsIdx (ix2 p q) ((contrEquiv1 D 2048 rfl rfl).symm k) = ix2 p k := funext fun ax => Fin.ext (by
    match ax with
    | ⟨0, _⟩ => exact lhs_row _ _
    | ⟨1, _⟩ => exact (lhs_k _ _).trans hk)
  have er : D.rhsIdx (ix2 p q) ((contrEquiv1 D 2048 rfl rfl).symm k) = ix2 q k := funext fun ax => Fin.ext (by
    match ax with
    | ⟨0, _⟩ => exact rhs_row _ _
    | ⟨1, _⟩ => exact (rhs_k _ _).trans hk)
  rw [el, er]

/-- The column of squared norms broadcast along the lanes reads, at (p, q), the column's entry (p, 0). -/
theorem col_bcast (v : FVec Ideal S2048x1 .f32) (p : Fin 2048) (q : Fin 256) :
    broadcastTo S2048x256 v broadcasts_S2048x1_S2048x256 (ix2 p q) = v (ix2 p 0) :=
  broadcastTo_apply v broadcasts_S2048x1_S2048x256 (ix2 p q) (ix2 p 0) (fun ax => match ax with
    | ⟨0, _⟩ => by show p.val = if (2048 : Nat) = 1 then 0 else p.val; rw [if_neg (by decide)]
    | ⟨1, _⟩ => by show 0 = if (1 : Nat) = 1 then 0 else q.val; rw [if_pos rfl])

/-- The row of squared norms broadcast along the sublanes reads, at (p, q), the row's entry (0, q). -/
theorem row_bcast (v : FVec Ideal S1x256 .f32) (p : Fin 2048) (q : Fin 256) :
    broadcastTo S2048x256 v broadcasts_S1x256_S2048x256 (ix2 p q) = v (ix2 0 q) :=
  broadcastTo_apply v broadcasts_S1x256_S2048x256 (ix2 p q) (ix2 0 q) (fun ax => match ax with
    | ⟨0, _⟩ => by show 0 = if (1 : Nat) = 1 then 0 else p.val; rw [if_pos rfl]
    | ⟨1, _⟩ => by show q.val = if (256 : Nat) = 1 then 0 else q.val; rw [if_neg (by decide)])

/-- THE BODY'S VALUE at entry (p, q) of the stored block. -/
theorem pay_apply (v0 : FVec Ideal S2048x2048 .bf16) (v2 : FVec Ideal S256x2048 .bf16)
    (v4 : FVec Ideal S2048x1 .f32) (v6 : FVec Ideal S1x256 .f32) (p : Fin 2048) (q : Fin 256) :
    k0_pay1 (F := Ideal) v0 v2 v4 v6 (ix2 p q) = negDist (v4 (ix2 p 0)) (v6 (ix2 0 q)) (inner v0 v2 p q) := by
  unfold k0_pay1
  simp only [shapeCast_self]
  show zeroW - Ideal.sqrt (max ((broadcastTo S2048x256 v4 broadcasts_S2048x1_S2048x256 (ix2 p q)
      + broadcastTo S2048x256 v6 broadcasts_S1x256_S2048x256 (ix2 p q))
      - twoW * matmul D none v0 v2 (constant (F := Ideal) S2048x256 .f32 0x00000000#32) (ix2 p q)) zeroW) = _
  rw [col_bcast, row_bcast, matmul_inner]
  rfl

end Cert.L2Dist.Body

end
-- ==== Proof.KernelBlocks.lean ====
/-
  From blocks to the array: what the kernel's result array holds after the run, as one function of the arguments.

  The grid has 8 × 16 points; at point (a, b) the pipeline hands the body rows 2048a … 2048a+2047 of x (all 2048
  columns), rows 256b … 256b+255 of e, rows 2048a … of the squared-norm column and columns 256b … of the
  squared-norm row, and writes the body's [2048,256] result back as block (a, b) of the result array.  So entry
  (2048a + p, 256b + q) of the result is the body's entry (p, q) of those blocks — which is `dist` at
  (2048a + p, 256b + q) of the whole arrays — and the 128 blocks tile the [16384,4096] result.

  Before the region the host has formed the two squared-norm arrays from the arguments and has changed the
  arguments' float format, which on the extended reals changes nothing.
-/
import proofs.«178038_j47966194762112_2_alg».proof.Proof.Gen.KernelIdeal.Value
import proofs.«178038_j47966194762112_2_alg».proof.Proof.BodyValue
import Idealize.ShloMosaic.Lib.Pipeline.Value
import Idealize.ShloMosaic.Lib.StableHlo.Run
import Idealize.ShloMosaic.Lib.Tactic

noncomputable section

namespace Cert.L2Dist.Kernel

open Cert.KernelIdeal Cert.KernelIdeal.Gen Cert.KernelIdeal.Value Idealize.ShloMosaic Idealize.ShloMosaic.TcCoe Idealize.SL.Sem
open Idealize.ShloMosaic.ValueIdx Cert.L2Dist
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Which block each window hands the body at a point -/

/-- The index maps, decided over the 128 points: the x block and the squared-norm column follow the result block's
    row index, the e block and the squared-norm row its column index, and every other block coordinate is 0. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 15 :=
  (by decide +kernel : ∀ t : Fin grid0.N, _)

/-- Every one of the 8 × 16 result blocks is some point's. -/
theorem idx_onto : ∀ (q0 : Fin 8) (q1 : Fin 16), ∃ t : Fin cfg0.N, win0_4.index t = ![q0.val, q1.val] :=
  (by decide +kernel : ∀ (q0 : Fin 8) (q1 : Fin 16), ∃ t : Fin grid0.N, win0_4.index t = ![q0.val, q1.val])

/-- Entry (p, k) of the x block at point `t` is x at (row r, k), r the result block's first row plus p. -/
theorem read_x (c : Dev nD) (t : Fin cfg0.N) (p k : Fin 2048) (r : Fin 16384)
    (hr : r.val = win0_4.index t (0 : Fin 2) * 2048 + p.val) :
    (iblk m c 0 t : S2048x2048.Idx → EReal) (ix2 p k) = (V m c main_v6 : S16384x2048.Idx → EReal) (ix2 r k) := by
  obtain ⟨e0, e1, -⟩ := idx_facts t
  unfold iblk
  rw [View.read_apply]
  refine congrArg (V m c main_v6) (funext fun a => Fin.ext ?_)
  match a with
  | ⟨0, _⟩ => show win0_0.index t (0 : Fin 2) * 2048 + 1 * p.val = r.val; omega
  | ⟨1, _⟩ => show win0_0.index t (1 : Fin 2) * 2048 + 1 * k.val = k.val; omega

/-- Entry (q, k) of the e block at point `t` is e at (row s, k), s the result block's first column plus q. -/
theorem read_e (c : Dev nD) (t : Fin cfg0.N) (q : Fin 256) (k : Fin 2048) (s : Fin 4096)
    (hs : s.val = win0_4.index t (1 : Fin 2) * 256 + q.val) :
    (iblk m c 1 t : S256x2048.Idx → EReal) (ix2 q k) = (V m c main_v7 : S4096x2048.Idx → EReal) (ix2 s k) := by
  obtain ⟨-, -, e0, e1, -⟩ := idx_facts t
  unfold iblk
  rw [View.read_apply]
  refine congrArg (V m c main_v7) (funext fun a => Fin.ext ?_)
  match a with
  | ⟨0, _⟩ => show win0_1.index t (0 : Fin 2) * 256 + 1 * q.val = s.val; omega
  | ⟨1, _⟩ => show win0_1.index t (1 : Fin 2) * 2048 + 1 * k.val = k.val; omega

/-- Entry (p, 0) of the squared-norm column's block at point `t` is the column at row r. -/
theorem read_col (c : Dev nD) (t : Fin cfg0.N) (p : Fin 2048) (r : Fin 16384)
    (hr : r.val = win0_4.index t (0 : Fin 2) * 2048 + p.val) :
    (iblk m c 2 t : S2048x1.Idx → EReal) (ix2 p 0) = (V m c main_v2 : S16384x1.Idx → EReal) (ix2 r 0) := by
  obtain ⟨-, -, -, -, e0, e1, -⟩ := idx_facts t
  unfold iblk
  rw [View.read_apply]
  refine congrArg (V m c main_v2) (funext fun a => Fin.ext ?_)
  match a with
  | ⟨0, _⟩ => show win0_2.index t (0 : Fin 2) * 2048 + 1 * p.val = r.val; omega
  | ⟨1, _⟩ => show win0_2.index t (1 : Fin 2) * 1 + 1 * 0 = 0; omega

/-- Entry (0, q) of the squared-norm row's block at point `t` is the row at column s. -/
theorem read_row (c : Dev nD) (t : Fin cfg0.N) (q : Fin 256) (s : Fin 4096)
    (hs : s.val = win0_4.index t (1 : Fin 2) * 256 + q.val) :
    (iblk m c 3 t : S1x256.Idx → EReal) (ix2 0 q) = (V m c main_v5 : S1x4096.Idx → EReal) (ix2 0 s) := by
  obtain ⟨-, -, -, -, -, -, e0, e1, -⟩ := idx_facts t
  unfold iblk
  rw [View.read_apply]
  refine congrArg (V m c main_v5) (funext fun a => Fin.ext ?_)
  match a with
  | ⟨0, _⟩ => show win0_3.index t (0 : Fin 2) * 1 + 1 * 0 = 0; omega
  | ⟨1, _⟩ => show win0_3.index t (1 : Fin 2) * 256 + 1 * q.val = s.val; omega

end Cert.L2Dist.Kernel

end
-- ==== Proof.KernelRun.lean ====
/-
  The kernel's run, read: after it the result array is `dist` of the two squared-norm arrays the host formed and of
  the two arguments.

  Point `t` writes back block `t` of that function (the body's entry (p, q) read at the blocks the point was handed),
  the 128 blocks cover the array (the block holding row r, column s is (r / 2048, s / 256)), and the arrays the region
  finds are the host operations' results on the launch memory.
-/
import proofs.«178038_j47966194762112_2_alg».proof.Proof.KernelBlocks

noncomputable section

namespace Cert.L2Dist.Kernel

open Cert.KernelIdeal Cert.KernelIdeal.Gen Cert.KernelIdeal.Value Idealize.ShloMosaic Idealize.ShloMosaic.TcCoe Idealize.SL.Sem
open Idealize.ShloMosaic.ValueIdx Cert.L2Dist
open Idealize.ShloMosaic.Pipeline (Dat)

variable (m : (ℓ : Loc nD τ sig) → Buf (Elt Ideal) ℓ) (ρ : Dev nD → PrngReg)

/-! ## The arrays the host forms before the region -/

/-- The column of squared row norms of `a`, as the host forms it: the product with itself summed along the last
    axis from 0, then given a trailing unit axis. -/
def normCol (a : S16384x2048.Idx → EReal) : S16384x1.Idx → EReal :=
  broadcastInDim S16384x1 ![0] bcast_S16384_S16384x1_0
    (Host.reduceAdd (F := Ideal) (mulf (F := Ideal) (φ := .f32) a a) (constant (F := Ideal) S_ .f32 0x00000000#32) reducesTo_S16384x2048_S16384_d1 h_S_)

/-- The row of squared row norms of `b`: the same sum, then given a leading unit axis. -/
def normRow (b : S4096x2048.Idx → EReal) : S1x4096.Idx → EReal :=
  broadcastInDim S1x4096 ![1] bcast_S4096_S1x4096_1
    (Host.reduceAdd (F := Ideal) (mulf (F := Ideal) (φ := .f32) b b) (constant (F := Ideal) S_ .f32 0x00000000#32) reducesTo_S4096x2048_S4096_d1 h_S_)

theorem V_col (c : Dev nD) : (V m c main_v2 : S16384x1.Idx → EReal) = normCol (m ((c : Thread nD τ).loc main_arg0)) := by
  dsimp only [Gen.V, Gen.hostOps0]; after_results; rfl

theorem V_row (c : Dev nD) : (V m c main_v5 : S1x4096.Idx → EReal) = normRow (m ((c : Thread nD τ).loc main_arg1)) := by
  dsimp only [Gen.V, Gen.hostOps0]; after_results; rfl

/-- The format change of x is the identity on the extended reals. -/
theorem V_x (c : Dev nD) : (V m c main_v6 : S16384x2048.Idx → EReal) = m ((c : Thread nD τ).loc main_arg0) := by
  dsimp only [Gen.V, Gen.hostOps0]; after_results; rfl

/-- The format change of e likewise. -/
theorem V_e (c : Dev nD) : (V m c main_v7 : S4096x2048.Idx → EReal) = m ((c : Thread nD τ).loc main_arg1) := by
  dsimp only [Gen.V, Gen.hostOps0]; after_results; rfl

/-! ## What a point writes back -/

/-- The whole result as the region's arrays give it. -/
abbrev regionDist (c : Dev nD) : S16384x4096.Idx → EReal :=
  dist (V m c main_v2) (V m c main_v5) (V m c main_v6) (V m c main_v7)

/-- WHAT POINT `t` WRITES BACK is block `t` of `regionDist`. -/
theorem flushed_eq (c : Dev nD) (t : Fin cfg0.N) :
    (dats m 0 c).flushed 4 t = ((cfg0.win 4).blk t).view.read (Elt Ideal) (regionDist m c) := by
  rw [flushed4]
  unfold out0_4
  rw [View.canon_unit_zero hz]
  simp only [View.ld_unit_zero (S := S2048x2048) hz, View.ld_unit_zero (S := S256x2048) hz,
    View.ld_unit_zero (S := S2048x1) hz, View.ld_unit_zero (S := S1x256) hz]
  funext j
  refine (Body.pay_apply (iblk m c 0 t) (iblk m c 1 t) (iblk m c 2 t) (iblk m c 3 t) (j 0) (j 1)).trans ?_
  rw [View.read_apply]
  have h0 : ((((cfg0.win 4).blk t).view.emb j) 0).val = win0_4.index t (0 : Fin 2) * 2048 + (j 0).val := by
    show win0_4.index t (0 : Fin 2) * 2048 + 1 * (j 0).val = _; omega
  have h1 : ((((cfg0.win 4).blk t).view.emb j) 1).val = win0_4.index t (1 : Fin 2) * 256 + (j 1).val := by
    show win0_4.index t (1 : Fin 2) * 256 + 1 * (j 1).val = _; omega
  show negDist _ _ _ = negDist _ _ _
  rw [read_col m c t (j 0) _ h0, read_row m c t (j 1) _ h1]
  refine congrArg (negDist _ _) ?_
  unfold inner
  refine Finset.sum_congr rfl fun k _ => ?_
  rw [read_x m c t (j 0) k _ h0, read_e m c t (j 1) k _ h1]

/-! ## The blocks cover the array -/

/-- An index of the result is in point `t`'s block iff each coordinate is in the block's range on its axis. -/
theorem mem_blk (t : Fin cfg0.N) (i : S16384x4096.Idx) :
    i ∈ ((cfg0.win 4).blk t).view.set ↔ ∀ a : Fin 2, win0_4.index t a * S2048x256.size a ≤ (i a).val
      ∧ (i a).val < win0_4.index t a * S2048x256.size a + S2048x256.size a := by
  show i ∈ ((View.whole main_v8).slice (win0_4.rect t)).set ↔ _
  rw [View.set_slice_whole, Rect.mem_set_unit]
  exact Iff.rfl

/-- Row r, column s lies in the block of the point whose result block is (r / 2048, s / 256). -/
theorem cover (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  obtain ⟨t, ht⟩ := idx_onto ⟨(i 0).val / 2048, by omega⟩ ⟨(i 1).val / 256, by omega⟩
  have q0 : win0_4.index t (0 : Fin 2) = (i 0).val / 2048 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 256 ≤ (i 1).val ∧ (i 1).val < win0_4.index t (1 : Fin 2) * 256 + 256; omega

/-! ## The array after the run, and the run -/

/-- The kernel's result as one function of the two arguments. -/
abbrev result (a : S16384x2048.Idx → EReal) (b : S4096x2048.Idx → EReal) : S16384x4096.Idx → EReal :=
  dist (normCol a) (normRow b) a b

/-- THE ARRAY after the run is `result` of the arguments. -/
theorem final (c : Dev nD) : (dats m 0 c).arrAt 4 cfg0.N
    = result (m ((c : Thread nD τ).loc main_arg0)) (m ((c : Thread nD τ).loc main_arg1)) := by
  have h := (dats m 0 c).arrAt_eq_of_cover 4 _ (fun t _ => flushed_eq m c t) cover
  rw [h]
  show dist _ _ _ _ = dist _ _ _ _
  rw [V_col, V_row, V_x, V_e]

/-- The run, read: the result array at `result` of the arguments, the arguments unchanged. -/
theorem run : θ_run defs (onTc (τ := τ) (main (F := Ideal))) ⟨m, fun _ => 0, ρ⟩ fun r => ∀ c : Dev nD,
      r.2.mem ((c : Thread nD τ).loc main_v8) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.L2Dist.Kernel

end
-- ==== Proof.RefIsDist.lean ====
/-
  The reference's result is the distance function `dist` of the arguments.

  Read one operation at a time, entry (r, s) of the reference's last stage is
      -( sqrt ( max ( (X2[r,0] + E2[0,s]) - 2 · Σ_k x[r,k] · eᵀ[k,s] , 0 ) ) ),
  with X2 and E2 the two squared-norm stages and eᵀ the transposed codebook; eᵀ[k,s] = e[s,k], so the sum is the
  inner product of row r of x with row s of e, and the outer negation is the subtraction from zero.
-/
import proofs.«178038_j47966194762112_2_alg».proof.Proof.Gen.ReferenceIdeal.Read
import proofs.«178038_j47966194762112_2_alg».proof.Proof.Spec

noncomputable section

namespace Cert.L2Dist.Ref

open Idealize.ShloMosaic Idealize.ShloMosaic.ValueIdx Cert.ReferenceIdeal Cert.ReferenceIdeal.Read Cert.L2Dist

/-- Where the broadcast of the squared-norm column reads it: row of the index, column 0. -/
theorem idx_col (i : S16384x4096.Idx) : idx_main_v6 i = ix2 (i 0) 0 :=
  funext fun a => Fin.ext (by match a with | ⟨0, _⟩ => rfl | ⟨1, _⟩ => rfl)

/-- Where the broadcast of the squared-norm row reads it: row 0, column of the index. -/
theorem idx_row (i : S16384x4096.Idx) : idx_main_v7 i = ix2 0 (i 1) :=
  funext fun a => Fin.ext (by match a with | ⟨0, _⟩ => rfl | ⟨1, _⟩ => rfl)

/-- The left factor of the k-th product: x at (row of the index, k). -/
theorem idx_lhs (i : S16384x4096.Idx) (k : Fin 2048) : lidx_main_v10 i k = ix2 (i 0) k :=
  funext fun a => Fin.ext (by match a with | ⟨0, _⟩ => rfl | ⟨1, _⟩ => rfl)

/-- The right factor of the k-th product, through the transpose: e at (column of the index, k). -/
theorem idx_rhs (i : S16384x4096.Idx) (k : Fin 2048) : idx_main_v9 (ridx_main_v10 i k) = ix2 (i 1) k :=
  funext fun a => Fin.ext (by match a with | ⟨0, _⟩ => rfl | ⟨1, _⟩ => rfl)

/-- The reference's last stage is `dist` of its two squared-norm stages and its two arguments. -/
theorem result_eq (x : (⟨S16384x2048, .f32⟩ : BufTy).Contents (Elt Ideal)) (e : (⟨S4096x2048, .f32⟩ : BufTy).Contents (Elt Ideal)) :
    val_main_v17 (F := Ideal) x e = dist (val_main_v2 (F := Ideal) x) (val_main_v5 (F := Ideal) e) x e := by
  funext i
  rw [val_main_v17_apply, val_main_v16_apply, val_main_v15_apply, val_main_v13_apply, val_main_v8_apply,
    val_main_v6_apply, val_main_v7_apply, val_main_v12_apply, val_main_v11_apply, val_main_v10_apply,
    val_main_v14_apply, val_main_cst_1_apply, val_main_cst_2_apply]
  simp only [val_main_v9_apply, idx_col, idx_row, idx_lhs, idx_rhs, Ideal.hostNegf_def, Ideal.negf_def,
    Ideal.hostUnary_sqrt_def, Ideal.maximumf_def, Ideal.subf_def, Ideal.addf_def, Ideal.mulf_def, Ideal.ofBits_def]
  exact neg_eq_zeroW_sub _

end Cert.L2Dist.Ref

end
-- ==== Proof.lean ====
/-
  Negated pairwise Euclidean distance between 16384 points x and a codebook e of 4096 rows, all of 2048 coordinates:
  a tiled kernel against the plain array expression, equal on the extended reals.

  Both programs form the squared row norms |x_r|² and |e_s|² by the same host operations on the same arguments, and
  both then compute, at (r, s),
      -( sqrt ( max ( (|x_r|² + |e_s|²) - 2 · ⟨x_r, e_s⟩ , 0 ) ) ).
  The kernel takes the inner products block by block (a [2048,2048] block of x against a [256,2048] block of e, both
  contracted along their last axis, into a zero accumulator) after a change of float format that the extended reals
  do not see; the reference transposes e and takes one whole product.  Entry by entry the two sums have the same
  terms in the same order, so no rearrangement law and no finiteness of the inputs is needed; the one identity used is
  that subtracting from zero is negation.

  The frames, the kernel's run block by block and the reference's run operation by operation come from the generated
  modules; the modules beside this one give the body's value at an entry, the passage from blocks to the whole array
  and the reading of the reference's stages as the same function, and this one assembles the five claims.
-/
import proofs.«178038_j47966194762112_2_alg».proof.Defs
import proofs.«178038_j47966194762112_2_alg».proof.Proof.Gen.Kernel
import proofs.«178038_j47966194762112_2_alg».proof.Proof.Gen.Kernel.Skeleton
import proofs.«178038_j47966194762112_2_alg».proof.Proof.Gen.Kernel.Launch
import proofs.«178038_j47966194762112_2_alg».proof.Proof.Gen.Kernel.Points
import proofs.«178038_j47966194762112_2_alg».proof.Proof.Gen.Kernel.Frame
import proofs.«178038_j47966194762112_2_alg».proof.Proof.Gen.KernelIdeal
import proofs.«178038_j47966194762112_2_alg».proof.Proof.Gen.KernelIdeal.Skeleton
import proofs.«178038_j47966194762112_2_alg».proof.Proof.Gen.KernelIdeal.Launch
import proofs.«178038_j47966194762112_2_alg».proof.Proof.Gen.KernelIdeal.Points
import proofs.«178038_j47966194762112_2_alg».proof.Proof.Gen.KernelIdeal.Frame
import proofs.«178038_j47966194762112_2_alg».proof.Proof.Gen.ReferenceIdeal
import proofs.«178038_j47966194762112_2_alg».proof.Proof.Gen.Pre_finite_inputs
import proofs.«178038_j47966194762112_2_alg».proof.Proof.Gen.KernelIdeal.Value
import proofs.«178038_j47966194762112_2_alg».proof.Proof.Gen.ReferenceIdeal.Run
import proofs.«178038_j47966194762112_2_alg».proof.Proof.Gen.ReferenceIdeal.Read
import proofs.«178038_j47966194762112_2_alg».proof.Proof.KernelRun
import proofs.«178038_j47966194762112_2_alg».proof.Proof.RefIsDist
import Idealize.ShloMosaic.Adequacy
import Idealize.ShloMosaic.Init

noncomputable section

namespace Cert.Proof

open Idealize.ShloMosaic Idealize.ShloMosaic.TcCoe Idealize.SL.Sem

/-! ## The three frames -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten for the extended reals: there is nothing to preserve. -/
theorem preserves : Cert.preserves_Kernel_KernelIdeal := trivial

/-! ## The two squared-norm arrays are the same functions of the arguments in both programs -/

theorem normCol_eq (a : Cert.KernelIdeal.S16384x2048.Idx → EReal) :
    Cert.ReferenceIdeal.Read.val_main_v2 (F := Ideal) a = Cert.L2Dist.Kernel.normCol a := rfl

theorem normRow_eq (b : Cert.KernelIdeal.S4096x2048.Idx → EReal) :
    Cert.ReferenceIdeal.Read.val_main_v5 (F := Ideal) b = Cert.L2Dist.Kernel.normRow b := rfl

/-! ## Equal results -/

/-- From memories agreeing on x and e, the kernel's result array ends at `dist` of the squared-norm arrays and the
    arguments (its run, read block by block), and the reference's at the same (its stages, read one by one). -/
theorem algebraic : Cert.algebraic_KernelIdeal_ReferenceIdeal := by
  intro m ρ m' ρ' _ hagree
  refine ⟨fun c => Cert.L2Dist.Kernel.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.L2Dist.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v17_eq _ _).trans ((Cert.L2Dist.Ref.result_eq _ _).trans ?_)
  rw [normCol_eq, normRow_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
